-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x64 : Shape := ⟨2, ![800000, 64]⟩
abbrev S192x256 : Shape := ⟨2, ![192, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x256 : S_.BroadcastsInDim S192x256 (![] : Fin 0 → Fin S192x256.rank)
  reducesTo_S192x256_S_d0_1 : S192x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000x64 .f32) (main_arg3 : FVec F S192x256 .f32) (main_arg4 : FVec F S256 .f32) (main_arg5 : FVec F S256x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x256 .f32 := Host.absf main_arg3
  let main_cst_2 : FVec F S_ .f32 := constant S_ .f32 0x7F800000#32
  let main_v10 : FVec F S192x256 .f32 := broadcastInDim S192x256 ![] bcast_S_S192x256 main_cst_2
  let main_v11 : IVec S192x256 1 := cmpf .olt main_v9 main_v10
  let main_c_3 : IVec S_ 1 := constantI S_ 1 1#1
  let main_v12 : IVec S_ 1 := (fun x v => Host.reduce IntOp.andi x v reducesTo_S192x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000x64 : Shape := ⟨2, ![800000, 64]⟩
abbrev S192x256 : Shape := ⟨2, ![192, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000x64 : Shape := ⟨2, ![50000, 64]⟩
abbrev S800000x1 : Shape := ⟨2, ![800000, 1]⟩
abbrev S128x256 : Shape := ⟨2, ![128, 256]⟩
abbrev S64x256 : Shape := ⟨2, ![64, 256]⟩
abbrev S1x256 : Shape := ⟨2, ![1, 256]⟩
abbrev S1x128 : Shape := ⟨2, ![1, 128]⟩
abbrev S2000x128 : Shape := ⟨2, ![2000, 128]⟩
abbrev S2000x64 : Shape := ⟨2, ![2000, 64]⟩
abbrev S2000x256 : Shape := ⟨2, ![2000, 256]⟩

abbrev nBuf : Space → Nat
  | .hbm => 18
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S192x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S50000x64, .f32⟩
  | .hbm, ⟨11, _⟩ => ⟨S800000x1, .i32⟩
  | .hbm, ⟨12, _⟩ => ⟨S50000x64, .f32⟩
  | .hbm, ⟨13, _⟩ => ⟨S128x256, .f32⟩
  | .hbm, ⟨14, _⟩ => ⟨S64x256, .f32⟩
  | .hbm, ⟨15, _⟩ => ⟨S1x256, .f32⟩
  | .hbm, ⟨16, _⟩ => ⟨S1x128, .f32⟩
  | .hbm, ⟨17, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x64, .f32⟩
  | .local _ .vmem, ⟨3, _⟩ => ⟨S2000x64, .f32⟩
  | .local _ .vmem, ⟨4, _⟩ => ⟨S128x256, .f32⟩
  | .local _ .vmem, ⟨5, _⟩ => ⟨S64x256, .f32⟩
  | .local _ .vmem, ⟨6, _⟩ => ⟨S1x256, .f32⟩
  | .local _ .vmem, ⟨7, _⟩ => ⟨S256x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x800000_S1x800000_0_0 : S2x800000.Slices ![0, 0] S1x800000
  shapeCasts_S1x800000_S800000 : S1x800000.ShapeCasts S800000
  bcast_S_S50000x64 : S_.BroadcastsInDim S50000x64 (![] : Fin 0 → Fin S50000x64.rank)
  bcast_S800000_S800000x1_0 : S800000.BroadcastsInDim S800000x1 (![0] : Fin 1 → Fin S800000x1.rank)
  slices_S192x256_S128x256_0_0 : S192x256.Slices ![0, 0] S128x256
  slices_S192x256_S64x256_128_0 : S192x256.Slices ![128, 0] S64x256
  shapeCasts_S256_S1x256 : S256.ShapeCasts S1x256
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000x64_S800000x1_S800000x64_1_0_0_1_wf : ScatterDims.WF S50000x64 S800000x1 S800000x64 [1] [0] [0] 1
  dot_S2000x128_S128x256_S2000x256_1_0_0_1_n_n_wf : DotDims.WF S2000x128 S128x256 S2000x256 [1] [0] [0] [1] [] []
  dot_S2000x64_S64x256_S2000x256_1_0_0_1_n_n_wf : DotDims.WF S2000x64 S64x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x64 : Shape := ⟨2, ![800000, 64]⟩
abbrev S192x256 : Shape := ⟨2, ![192, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000x64 : Shape := ⟨2, ![50000, 64]⟩
abbrev S800000x1 : Shape := ⟨2, ![800000, 1]⟩
abbrev S50000x192 : Shape := ⟨2, ![50000, 192]⟩
abbrev S50000x256 : Shape := ⟨2, ![50000, 256]⟩
abbrev S1x256 : Shape := ⟨2, ![1, 256]⟩
abbrev S1x128 : Shape := ⟨2, ![1, 128]⟩

abbrev nBuf : Space → Nat
  | .hbm => 25
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S192x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S50000x64, .f32⟩
  | .hbm, ⟨11, _⟩ => ⟨S800000x1, .i32⟩
  | .hbm, ⟨12, _⟩ => ⟨S50000x64, .f32⟩
  | .hbm, ⟨13, _⟩ => ⟨S50000x192, .f32⟩
  | .hbm, ⟨14, _⟩ => ⟨S50000x256, .f32⟩
  | .hbm, ⟨15, _⟩ => ⟨S1x256, .f32⟩
  | .hbm, ⟨16, _⟩ => ⟨S50000x256, .f32⟩
  | .hbm, ⟨17, _⟩ => ⟨S50000x256, .f32⟩
  | .hbm, ⟨18, _⟩ => ⟨S_, .f32⟩
  | .hbm, ⟨19, _⟩ => ⟨S50000x256, .f32⟩
  | .hbm, ⟨20, _⟩ => ⟨S50000x256, .f32⟩
  | .hbm, ⟨21, _⟩ => ⟨S50000x128, .f32⟩
  | .hbm, ⟨22, _⟩ => ⟨S1x128, .f32⟩
  | .hbm, ⟨23, _⟩ => ⟨S50000x128, .f32⟩
  | .hbm, ⟨24, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_cst : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S50000x64 : S_.BroadcastsInDim S50000x64 (![] : Fin 0 → Fin S50000x64.rank)
  bcast_S800000_S800000x1_0 : S800000.BroadcastsInDim S800000x1 (![0] : Fin 1 → Fin S800000x1.rank)
  concatenates_S50000x128_S50000x64_S50000x192_d1 : Shape.Concatenates [S50000x128, S50000x64] S50000x192 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000x64_S800000x1_S800000x64_1_0_0_1_wf : ScatterDims.WF S50000x64 S800000x1 S800000x64 [1] [0] [0] 1
  dot_S50000x192_S192x256_S50000x256_1_0_0_1_n_n_wf : DotDims.WF S50000x192 S192x256 S50000x256 [1] [0] [0] [1] [] []
  dot_S50000x256_S256x128_S50000x128_1_0_0_1_n_n_wf : DotDims.WF S50000x256 S256x128 S50000x128 [1] [0] [0] [1] [] []

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x192_S192x256_S50000x256_1_0_0_1_n_n : DotDims S50000x192 S192x256 S50000x256 where
  lhsContracting := [1]
  rhsContracting := [0]
  lhsNonContracting := [0]
  rhsNonContracting := [1]
  lhsBatch := []
  rhsBatch := []
  wf := dot_S50000x192_S192x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.LibSplitDense.lean ====
/-
  A two-layer perceptron head whose first-layer weight arrives in two row blocks, as one array.

  For a row block X (R×a), a second row block A (R×b), first-layer weights Wa (a×h) and Wb (b×h), a bias row B₁ (1×h),
  second-layer weight W₂ (h×n) and bias row B₂ (1×n), over the extended reals:

    hidden(r, k) = max ((Σ_c X(r,c)·Wa(c,k) + Σ_c A(r,c)·Wb(c,k)) + B₁(0,k), z)      (z the word of 0.0, kept as a word)
    out(r, q)    = Σ_k hidden(r,k)·W₂(k,q) + B₂(0,q)

  * `body_eq`: a kernel block's spelling of it — two matrix products into zero accumulators of the re-cast operands
    added, the bias row broadcast down the rows and added, the maximum with a splat zero, a third product, the second
    bias row — IS that array, entry by entry. A change of float format is the identity on extended reals, a
    reshape of an array to its own shape is the array, and each product into the zero accumulator is the plain sum
    over the contracted coordinate; nothing is rearranged, so no finiteness is asked.
  * `rows_congr`, `block_congr`: the array at row p of a block equals the array at row r of a taller array when the
    two row operands agree there, lane by lane — a row of `out` depends on the same row of X and of A only.
-/
import Idealize.ShloMosaic.PureOps.Ideal.Laws
import Idealize.ShloMosaic.Lib.ValueIdx
import Idealize.ShloMosaic.Lib.Pipeline.Value
import proofs.«130215_j83949430768186_1_alg».proof.Proof.LibPlainDot
import proofs.«130215_j83949430768186_1_alg».proof.Proof.LibRowVector

noncomputable section

open scoped BigOperators

namespace Cert.SplitDense

open Idealize.ShloMosaic Idealize.ShloMosaic.ValueIdx

variable {R a b h n : Nat}

/-- The hidden layer: both partial products, the bias row, clamped below at the word of zero. -/
def hidden (X : (⟨2, ![R, a]⟩ : Shape).Idx → EReal) (A : (⟨2, ![R, b]⟩ : Shape).Idx → EReal)
    (Wa : (⟨2, ![a, h]⟩ : Shape).Idx → EReal) (Wb : (⟨2, ![b, h]⟩ : Shape).Idx → EReal)
    (B₁ : (⟨2, ![1, h]⟩ : Shape).Idx → EReal) : (⟨2, ![R, h]⟩ : Shape).Idx → EReal :=
  fun i => max (((∑ c : Fin a, X (ix2 (i 0) c) * Wa (ix2 c (i 1))) + (∑ c : Fin b, A (ix2 (i 0) c) * Wb (ix2 c (i 1))))
    + B₁ (ix2 0 (i 1))) (Ideal.ofBits .f32 0x00000000#32)

/-- The output layer over a hidden array. -/
def outOf (H : (⟨2, ![R, h]⟩ : Shape).Idx → EReal) (W₂ : (⟨2, ![h, n]⟩ : Shape).Idx → EReal)
    (B₂ : (⟨2, ![1, n]⟩ : Shape).Idx → EReal) : (⟨2, ![R, n]⟩ : Shape).Idx → EReal :=
  fun i => (∑ k : Fin h, H (ix2 (i 0) k) * W₂ (ix2 k (i 1))) + B₂ (ix2 0 (i 1))

/-- A kernel block's spelling of the head is the array `outOf (hidden …)`. -/
theorem body_eq
    (D₁ : DotDims ⟨2, ![R, a]⟩ ⟨2, ![a, h]⟩ ⟨2, ![R, h]⟩) (hD₁ : D₁ = DotDims.plain R a h)
    (D₂ : DotDims ⟨2, ![R, b]⟩ ⟨2, ![b, h]⟩ ⟨2, ![R, h]⟩) (hD₂ : D₂ = DotDims.plain R b h)
    (D₃ : DotDims ⟨2, ![R, h]⟩ ⟨2, ![h, n]⟩ ⟨2, ![R, n]⟩) (hD₃ : D₃ = DotDims.plain R h n)
    (hh : h ≠ 1) (hn : n ≠ 1) (lt : FTy.bits .bf16 < FTy.bits .f32)
    (x0 : FVec Ideal ⟨2, ![R, a]⟩ .f32) (x1 : FVec Ideal ⟨2, ![R, b]⟩ .f32) (x2 : FVec Ideal ⟨2, ![a, h]⟩ .f32)
    (x3 : FVec Ideal ⟨2, ![b, h]⟩ .f32) (x4 : FVec Ideal ⟨2, ![1, h]⟩ .f32) (x5 : FVec Ideal ⟨2, ![h, n]⟩ .f32)
    (x6 : FVec Ideal ⟨2, ![1, n]⟩ .f32)
    (s1 : (⟨2, ![R, b]⟩ : Shape).ShapeCasts ⟨2, ![R, b]⟩) (s2 : (⟨2, ![a, h]⟩ : Shape).ShapeCasts ⟨2, ![a, h]⟩)
    (s3 : (⟨2, ![b, h]⟩ : Shape).ShapeCasts ⟨2, ![b, h]⟩) (s4 : (⟨2, ![1, h]⟩ : Shape).ShapeCasts ⟨2, ![1, h]⟩)
    (s6 : (⟨2, ![1, n]⟩ : Shape).ShapeCasts ⟨2, ![1, n]⟩)
    (b4 : (⟨2, ![1, h]⟩ : Shape).Broadcasts ⟨2, ![R, h]⟩) (b6 : (⟨2, ![1, n]⟩ : Shape).Broadcasts ⟨2, ![R, n]⟩) :
    addf (matmul D₃ none
        (truncf .bf16 (maximumf (addf (addf
            (matmul D₁ none (truncf .bf16 x0 lt) (truncf .bf16 (shapeCast ⟨2, ![a, h]⟩ x2 s2) lt)
              (constant (F := Ideal) ⟨2, ![R, h]⟩ .f32 0x00000000#32))
            (matmul D₂ none (truncf .bf16 (shapeCast ⟨2, ![R, b]⟩ x1 s1) lt) (truncf .bf16 (shapeCast ⟨2, ![b, h]⟩ x3 s3) lt)
              (constant (F := Ideal) ⟨2, ![R, h]⟩ .f32 0x00000000#32)))
            (broadcastTo ⟨2, ![R, h]⟩ (shapeCast ⟨2, ![1, h]⟩ x4 s4) b4))
          (broadcast ⟨2, ![R, h]⟩ (Scalar.ofBits (F := Ideal) .f32 0x00000000#32))) lt)
        (truncf .bf16 x5 lt) (constant (F := Ideal) ⟨2, ![R, n]⟩ .f32 0x00000000#32))
      (broadcastTo ⟨2, ![R, n]⟩ (shapeCast ⟨2, ![1, n]⟩ x6 s6) b6)
    = outOf (hidden x0 x1 x2 x3 x4) x5 x6 := by
  funext j
  obtain ⟨p, q, rfl⟩ : ∃ (p : Fin R) (q : Fin n), j = ix2 p q := ⟨j 0, j 1, eq_ix2 j⟩
  rw [shapeCast_self x2 s2, shapeCast_self x1 s1, shapeCast_self x3 s3, shapeCast_self x4 s4, shapeCast_self x6 s6]
  rw [addf_apply]
  refine (congrArg₂ (· + ·) (Cert.PlainDot.matmul_zero_apply D₃ hD₃ none _ _ p q)
    (Cert.RowVector.broadcastTo_row hn x6 b6 p q)).trans ?_
  show _ = (∑ k : Fin h, hidden x0 x1 x2 x3 x4 (ix2 p k) * x5 (ix2 k q)) + x6 (ix2 0 q)
  congr 1
  refine Finset.sum_congr rfl fun k _ => ?_
  have e1 := Cert.PlainDot.matmul_zero_apply D₁ hD₁ none (truncf .bf16 x0 lt) (truncf .bf16 x2 lt) p k
  have e2 := Cert.PlainDot.matmul_zero_apply D₂ hD₂ none (truncf .bf16 x1 lt) (truncf .bf16 x3 lt) p k
  have e3 := Cert.RowVector.broadcastTo_row hh x4 b4 p k
  show max ((FloatOps.matmul D₁ none (truncf .bf16 x0 lt) (truncf .bf16 x2 lt)
        (constant (F := Ideal) ⟨2, ![R, h]⟩ .f32 0x00000000#32) (ix2 p k)
      + FloatOps.matmul D₂ none (truncf .bf16 x1 lt) (truncf .bf16 x3 lt)
        (constant (F := Ideal) ⟨2, ![R, h]⟩ .f32 0x00000000#32) (ix2 p k))
      + broadcastTo ⟨2, ![R, h]⟩ x4 b4 (ix2 p k)) (Ideal.ofBits .f32 0x00000000#32) * x5 (ix2 k q) = _
  rw [e1, e2, e3]
  rfl

/-- Row p of the head over a block is row r of the head over a taller array whose row r holds the block's row p. -/
theorem rows_congr {R' : Nat}
    (X' : (⟨2, ![R', a]⟩ : Shape).Idx → EReal) (A' : (⟨2, ![R', b]⟩ : Shape).Idx → EReal)
    (X : (⟨2, ![R, a]⟩ : Shape).Idx → EReal) (A : (⟨2, ![R, b]⟩ : Shape).Idx → EReal)
    (Wa : (⟨2, ![a, h]⟩ : Shape).Idx → EReal) (Wb : (⟨2, ![b, h]⟩ : Shape).Idx → EReal)
    (B₁ : (⟨2, ![1, h]⟩ : Shape).Idx → EReal) (W₂ : (⟨2, ![h, n]⟩ : Shape).Idx → EReal)
    (B₂ : (⟨2, ![1, n]⟩ : Shape).Idx → EReal) (p : Fin R') (r : Fin R) (q : Fin n)
    (hX : ∀ c : Fin a, X' (ix2 p c) = X (ix2 r c)) (hA : ∀ c : Fin b, A' (ix2 p c) = A (ix2 r c)) :
    outOf (hidden X' A' Wa Wb B₁) W₂ B₂ (ix2 p q) = outOf (hidden X A Wa Wb B₁) W₂ B₂ (ix2 r q) := by
  show (∑ k : Fin h, hidden X' A' Wa Wb B₁ (ix2 p k) * W₂ (ix2 k q)) + B₂ (ix2 0 q)
    = (∑ k : Fin h, hidden X A Wa Wb B₁ (ix2 r k) * W₂ (ix2 k q)) + B₂ (ix2 0 q)
  congr 1
  refine Finset.sum_congr rfl fun k _ => ?_
  congr 1
  show max (((∑ c : Fin a, X' (ix2 p c) * Wa (ix2 c k)) + (∑ c : Fin b, A' (ix2 p c) * Wb (ix2 c k))) + B₁ (ix2 0 k)) _
    = max (((∑ c : Fin a, X (ix2 r c) * Wa (ix2 c k)) + (∑ c : Fin b, A (ix2 r c) * Wb (ix2 c k))) + B₁ (ix2 0 k)) _
  simp only [hX, hA]

/-- The same with every operand of the block given by an equation: the two row operands row by row, the weights and
    the bias rows whole — the form a pipelined kernel's block at a grid point meets the whole arrays in. -/
theorem block_congr {R' : Nat}
    (X' : (⟨2, ![R', a]⟩ : Shape).Idx → EReal) (A' : (⟨2, ![R', b]⟩ : Shape).Idx → EReal)
    (Wa' : (⟨2, ![a, h]⟩ : Shape).Idx → EReal) (Wb' : (⟨2, ![b, h]⟩ : Shape).Idx → EReal)
    (B₁' : (⟨2, ![1, h]⟩ : Shape).Idx → EReal) (W₂' : (⟨2, ![h, n]⟩ : Shape).Idx → EReal)
    (B₂' : (⟨2, ![1, n]⟩ : Shape).Idx → EReal)
    (X : (⟨2, ![R, a]⟩ : Shape).Idx → EReal) (A : (⟨2, ![R, b]⟩ : Shape).Idx → EReal)
    (Wa : (⟨2, ![a, h]⟩ : Shape).Idx → EReal) (Wb : (⟨2, ![b, h]⟩ : Shape).Idx → EReal)
    (B₁ : (⟨2, ![1, h]⟩ : Shape).Idx → EReal) (W₂ : (⟨2, ![h, n]⟩ : Shape).Idx → EReal)
    (B₂ : (⟨2, ![1, n]⟩ : Shape).Idx → EReal) (p : Fin R') (r : Fin R) (q : Fin n)
    (hX : ∀ c : Fin a, X' (ix2 p c) = X (ix2 r c)) (hA : ∀ c : Fin b, A' (ix2 p c) = A (ix2 r c))
    (hWa : Wa' = Wa) (hWb : Wb' = Wb) (hB₁ : B₁' = B₁) (hW₂ : W₂' = W₂) (hB₂ : B₂' = B₂) :
    outOf (hidden X' A' Wa' Wb' B₁') W₂' B₂' (ix2 p q) = outOf (hidden X A Wa Wb B₁) W₂ B₂ (ix2 r q) := by
  subst hWa hWb hB₁ hW₂ hB₂
  exact rows_congr X' A' X A Wa' Wb' B₁' W₂' B₂' p r q hX hA

end Cert.SplitDense

end
-- ==== Proof.Spec.lean ====
/-
  What both programs compute, as one array of the seven arguments.

  Every edge carries a feature row; each row is added into the bucket of the node that the first row of the edge
  index names for it: `agg` is that per-node aggregate, 50000×64, as the programs spell it — a scatter-add of the
  800000 edge rows into a zero array, the index row cut out and laid as a column. It is never opened here: both
  programs compute it by the same operations, so it is carried as one array.

  The result is the two-layer head of `Cert.SplitDense` over the node features and that aggregate, the first
  layer's 192×256 weight entering as its first 128 rows (against the node features) and its last 64 rows (against
  the aggregate), the two bias vectors as 1×256 and 1×128 rows:

    G(r, q) = Σ_k max ((Σ_c x(r,c)·W₁(c,k) + Σ_c agg(r,c)·W₁(128+c,k)) + b₁(k), 0) · W₂(k,q) + b₂(q).
-/
import proofs.«130215_j83949430768186_1_alg».proof.Proof.Gen.KernelIdeal
import proofs.«130215_j83949430768186_1_alg».proof.Proof.LibSplitDense

noncomputable section

namespace Cert.NodeLayer

open Idealize.ShloMosaic Idealize.ShloMosaic.ValueIdx
open Cert.KernelIdeal Cert.KernelIdeal.Gen

/-- The per-node aggregate of the edge rows: scatter-added, by the node the index names, into a zero array. -/
def agg (idx : (⟨S2x800000, .i32⟩ : BufTy).Contents (Elt Ideal)) (ea : (⟨S800000x64, .f32⟩ : BufTy).Contents (Elt Ideal)) :
    (⟨S50000x64, .f32⟩ : BufTy).Contents (Elt Ideal) :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0
      (shapeCast _ (extractStridedSlice S1x800000 ![0, 0] idx slices_S2x800000_S1x800000_0_0) shapeCasts_S1x800000_S800000))
    ea

/-- The first-layer weight's rows that meet the node features. -/
def wTop (w : (⟨S192x256, .f32⟩ : BufTy).Contents (Elt Ideal)) : (⟨S128x256, .f32⟩ : BufTy).Contents (Elt Ideal) :=
  extractStridedSlice S128x256 ![0, 0] w slices_S192x256_S128x256_0_0

/-- The first-layer weight's rows that meet the aggregate. -/
def wBottom (w : (⟨S192x256, .f32⟩ : BufTy).Contents (Elt Ideal)) : (⟨S64x256, .f32⟩ : BufTy).Contents (Elt Ideal) :=
  extractStridedSlice S64x256 ![128, 0] w slices_S192x256_S64x256_128_0

/-- The first bias as a 1×256 row. -/
def row₁ (v : (⟨S256, .f32⟩ : BufTy).Contents (Elt Ideal)) : (⟨S1x256, .f32⟩ : BufTy).Contents (Elt Ideal) :=
  shapeCast _ v shapeCasts_S256_S1x256

/-- The second bias as a 1×128 row. -/
def row₂ (v : (⟨S128, .f32⟩ : BufTy).Contents (Elt Ideal)) : (⟨S1x128, .f32⟩ : BufTy).Contents (Elt Ideal) :=
  shapeCast _ v shapeCasts_S128_S1x128

/-- The node layer's result, 50000×128, as one function of the seven arguments. -/
def G (x0 : (⟨S50000x128, .f32⟩ : BufTy).Contents (Elt Ideal)) (x1 : (⟨S2x800000, .i32⟩ : BufTy).Contents (Elt Ideal))
    (x2 : (⟨S800000x64, .f32⟩ : BufTy).Contents (Elt Ideal)) (x3 : (⟨S192x256, .f32⟩ : BufTy).Contents (Elt Ideal))
    (x4 : (⟨S256, .f32⟩ : BufTy).Contents (Elt Ideal)) (x5 : (⟨S256x128, .f32⟩ : BufTy).Contents (Elt Ideal))
    (x6 : (⟨S128, .f32⟩ : BufTy).Contents (Elt Ideal)) : (⟨S50000x128, .f32⟩ : BufTy).Contents (Elt Ideal) :=
  Cert.SplitDense.outOf (Cert.SplitDense.hidden x0 (agg x1 x2) (wTop x3) (wBottom x3) (row₁ x4)) x5 (row₂ x6)

end Cert.NodeLayer

end
-- ==== Proof.KernelSide.lean ====
/-
  The kernel computes `G`.

  The kernel walks the 50000 rows in 25 blocks of 2000. At block t it holds rows [2000 t, 2000 t + 2000) of the node
  features and of the aggregate, and the whole of the two weight slices, the two bias rows and the second weight; its
  body is the two-layer head of `Cert.SplitDense` over those blocks (`pay_eq`), written back to the same rows of the
  result. Row p of the head over a block depends on row p of the two row operands only, so the head over the blocks
  at point t is rows [2000 t, 2000 t + 2000) of the head over the whole arrays — shown for ANY seven arrays
  (`point_eq`), so that what the arrays hold plays no part —, and that is what point t writes back
  (`flushed7_eq`); row r lies in block r / 2000 (`cover7`), so the result array ends as the head over the whole
  arrays. The arrays the kernel is launched on are the node features, the aggregate, the two row slices of the first
  weight, the first bias as a row, the second weight and the second bias as a row, each computed from the arguments
  before the launch (`V_…`): the result array ends at `G` of the arguments (`final7`, `run`).
-/
import proofs.«130215_j83949430768186_1_alg».proof.Proof.Spec
import proofs.«130215_j83949430768186_1_alg».proof.Proof.Gen.KernelIdeal.Value
import proofs.«130215_j83949430768186_1_alg».proof.Proof.LibSplitDense
import Idealize.ShloMosaic.Lib.StableHlo.Run

set_option maxRecDepth 16384

noncomputable section

namespace Cert.NodeLayer.Kern

open Cert.KernelIdeal Cert.KernelIdeal.Gen Cert.KernelIdeal.Value Cert.NodeLayer
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The body's one payload is the two-layer head over its blocks. -/
theorem pay_eq (x0 : Vec Ideal S2000x128 .f32) (x1 : Vec Ideal S2000x64 .f32) (x2 : Vec Ideal S128x256 .f32)
    (x3 : Vec Ideal S64x256 .f32) (x4 : Vec Ideal S1x256 .f32) (x5 : Vec Ideal S256x128 .f32) (x6 : Vec Ideal S1x128 .f32) :
    k0_pay1 (F := Ideal) x0 x1 x2 x3 x4 x5 x6 = Cert.SplitDense.outOf (Cert.SplitDense.hidden x0 x1 x2 x3 x4) x5 x6 :=
  Cert.SplitDense.body_eq (R := 2000) (a := 128) (b := 64) (h := 256) (n := 128)
    dot_S2000x128_S128x256_S2000x256_1_0_0_1_n_n rfl dot_S2000x64_S64x256_S2000x256_1_0_0_1_n_n rfl
    dot_S2000x256_S256x128_S2000x128_1_0_0_1_n_n rfl (by decide) (by decide) bitsLt_bf16_f32 x0 x1 x2 x3 x4 x5 x6
    shapeCasts_S2000x64_S2000x64 shapeCasts_S128x256_S128x256 shapeCasts_S64x256_S64x256 shapeCasts_S1x256_S1x256
    shapeCasts_S1x128_S1x128 broadcasts_S1x256_S2000x256 broadcasts_S1x128_S2000x128

/-! ## The arrays the kernel is launched on -/

/-- The aggregate's array, as the launch finds it. -/
theorem V_agg (c : Dev nD) : (V m c main_v4 : S50000x64.Idx → EReal)
    = agg (m ((c : Thread nD τ).loc main_arg1)) (m ((c : Thread nD τ).loc main_arg2)) := by
  dsimp only [Gen.V, Gen.hostOps0]; after_results; rfl

/-- The first weight's first 128 rows. -/
theorem V_wTop (c : Dev nD) : (V m c main_v5 : S128x256.Idx → EReal) = wTop (m ((c : Thread nD τ).loc main_arg3)) := by
  dsimp only [Gen.V, Gen.hostOps0]; after_results; rfl

/-- The first weight's last 64 rows. -/
theorem V_wBottom (c : Dev nD) : (V m c main_v6 : S64x256.Idx → EReal) = wBottom (m ((c : Thread nD τ).loc main_arg3)) := by
  dsimp only [Gen.V, Gen.hostOps0]; after_results; rfl

/-- The first bias as a row. -/
theorem V_row₁ (c : Dev nD) : (V m c main_v7 : S1x256.Idx → EReal) = row₁ (m ((c : Thread nD τ).loc main_arg4)) := by
  dsimp only [Gen.V, Gen.hostOps0]; after_results; rfl

/-- The second bias as a row. -/
theorem V_row₂ (c : Dev nD) : (V m c main_v8 : S1x128.Idx → EReal) = row₂ (m ((c : Thread nD τ).loc main_arg6)) := by
  dsimp only [Gen.V, Gen.hostOps0]; after_results; rfl

/-! ## From blocks to the array -/

/-- The printed index maps over the 25 points: the two row operands move with the result's row block, every other
    window stays at block (0, 0), and the result's row block at point t is block t. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (1 : Fin 2) = 0 ∧ win0_7.index t (0 : Fin 2) ≤ 24 :=
  (by decide +kernel : ∀ t : Fin grid0.N, _)

/-- Every row block is some point's. -/
theorem idx_onto : ∀ q0 : Fin 25, ∃ t : Fin cfg0.N, win0_7.index t = ![q0.val, 0] :=
  (by decide +kernel : ∀ q0 : Fin 25, ∃ t : Fin grid0.N, win0_7.index t = ![q0.val, 0])

/-- At point t, the head over the seven windows' blocks of ANY seven arrays is block t of the head over the arrays:
    the two row operands' blocks are rows [2000 t, 2000 t + 2000) of their arrays, every other block is its whole
    array, and a row of the head depends on the same row of the row operands only. -/
theorem point_eq (c : Dev nD) (t : Fin cfg0.N)
    (A0 : Buf (Elt Ideal) ((c : Thread nD τ).loc main_arg0)) (A1 : Buf (Elt Ideal) ((c : Thread nD τ).loc main_v4))
    (A2 : Buf (Elt Ideal) ((c : Thread nD τ).loc main_v5)) (A3 : Buf (Elt Ideal) ((c : Thread nD τ).loc main_v6))
    (A4 : Buf (Elt Ideal) ((c : Thread nD τ).loc main_v7)) (A5 : Buf (Elt Ideal) ((c : Thread nD τ).loc main_arg5))
    (A6 : Buf (Elt Ideal) ((c : Thread nD τ).loc main_v8)) :
    Cert.SplitDense.outOf (Cert.SplitDense.hidden (((cfg0.win 0).blk t).view.read (Elt Ideal) A0)
        (((cfg0.win 1).blk t).view.read (Elt Ideal) A1) (((cfg0.win 2).blk t).view.read (Elt Ideal) A2)
        (((cfg0.win 3).blk t).view.read (Elt Ideal) A3) (((cfg0.win 4).blk t).view.read (Elt Ideal) A4))
        (((cfg0.win 5).blk t).view.read (Elt Ideal) A5) (((cfg0.win 6).blk t).view.read (Elt Ideal) A6)
      = ((cfg0.win 7).blk t).view.read (Elt Ideal)
          (Cert.SplitDense.outOf (Cert.SplitDense.hidden A0 A1 A2 A3 A4) A5 A6) := by
  obtain ⟨e00, e01, e10, e11, e20, e21, e30, e31, e40, e41, e50, e51, e60, e61, e71, e70⟩ := idx_facts t
  funext j
  obtain ⟨p, q, rfl⟩ : ∃ (p : Fin 2000) (q : Fin 128), j = ix2 p q := ⟨j 0, j 1, eq_ix2 j⟩
  have hp : p.val < 2000 := p.isLt
  have hq : q.val < 128 := q.isLt
  have hemb : ((cfg0.win 7).blk t).view.emb (ix2 p q)
      = ix2 (⟨win0_7.index t (0 : Fin 2) * 2000 + p.val, by omega⟩ : Fin 50000) q := by
    funext d; apply Fin.ext
    match d with
    | ⟨0, _⟩ => show win0_7.index t (0 : Fin 2) * 2000 + 1 * p.val = win0_7.index t (0 : Fin 2) * 2000 + p.val; omega
    | ⟨1, _⟩ => show win0_7.index t (1 : Fin 2) * 128 + 1 * q.val = q.val; omega
  show _ = Cert.SplitDense.outOf (Cert.SplitDense.hidden A0 A1 A2 A3 A4) A5 A6 (((cfg0.win 7).blk t).view.emb (ix2 p q))
  rw [hemb]
  refine Cert.SplitDense.block_congr _ _ _ _ _ _ _ A0 A1 A2 A3 A4 A5 A6 p _ q ?_ ?_ ?_ ?_ ?_ ?_ ?_
  · intro l
    have hl : l.val < 128 := l.isLt
    have hi : ((cfg0.win 0).blk t).view.emb (ix2 p l)
        = ix2 (⟨win0_7.index t (0 : Fin 2) * 2000 + p.val, by omega⟩ : Fin 50000) l := by
      funext d; apply Fin.ext
      match d with
      | ⟨0, _⟩ => show win0_0.index t (0 : Fin 2) * 2000 + 1 * p.val = win0_7.index t (0 : Fin 2) * 2000 + p.val; omega
      | ⟨1, _⟩ => show win0_0.index t (1 : Fin 2) * 128 + 1 * l.val = l.val; omega
    show A0 (((cfg0.win 0).blk t).view.emb (ix2 p l)) = A0 _
    rw [hi]
  · intro l
    have hl : l.val < 64 := l.isLt
    have hi : ((cfg0.win 1).blk t).view.emb (ix2 p l)
        = ix2 (⟨win0_7.index t (0 : Fin 2) * 2000 + p.val, by omega⟩ : Fin 50000) l := by
      funext d; apply Fin.ext
      match d with
      | ⟨0, _⟩ => show win0_1.index t (0 : Fin 2) * 2000 + 1 * p.val = win0_7.index t (0 : Fin 2) * 2000 + p.val; omega
      | ⟨1, _⟩ => show win0_1.index t (1 : Fin 2) * 64 + 1 * l.val = l.val; omega
    show A1 (((cfg0.win 1).blk t).view.emb (ix2 p l)) = A1 _
    rw [hi]
  · funext y
    have hi : ((cfg0.win 2).blk t).view.emb y = y := by
      funext d; apply Fin.ext
      match d with
      | ⟨0, _⟩ => show win0_2.index t (0 : Fin 2) * 128 + 1 * (y 0).val = (y 0).val; omega
      | ⟨1, _⟩ => show win0_2.index t (1 : Fin 2) * 256 + 1 * (y 1).val = (y 1).val; omega
    show A2 (((cfg0.win 2).blk t).view.emb y) = A2 y
    rw [hi]
  · funext y
    have hi : ((cfg0.win 3).blk t).view.emb y = y := by
      funext d; apply Fin.ext
      match d with
      | ⟨0, _⟩ => show win0_3.index t (0 : Fin 2) * 64 + 1 * (y 0).val = (y 0).val; omega
      | ⟨1, _⟩ => show win0_3.index t (1 : Fin 2) * 256 + 1 * (y 1).val = (y 1).val; omega
    show A3 (((cfg0.win 3).blk t).view.emb y) = A3 y
    rw [hi]
  · funext y
    have hi : ((cfg0.win 4).blk t).view.emb y = y := by
      funext d; apply Fin.ext
      match d with
      | ⟨0, _⟩ => show win0_4.index t (0 : Fin 2) * 1 + 1 * (y 0).val = (y 0).val; omega
      | ⟨1, _⟩ => show win0_4.index t (1 : Fin 2) * 256 + 1 * (y 1).val = (y 1).val; omega
    show A4 (((cfg0.win 4).blk t).view.emb y) = A4 y
    rw [hi]
  · funext y
    have hi : ((cfg0.win 5).blk t).view.emb y = y := by
      funext d; apply Fin.ext
      match d with
      | ⟨0, _⟩ => show win0_5.index t (0 : Fin 2) * 256 + 1 * (y 0).val = (y 0).val; omega
      | ⟨1, _⟩ => show win0_5.index t (1 : Fin 2) * 128 + 1 * (y 1).val = (y 1).val; omega
    show A5 (((cfg0.win 5).blk t).view.emb y) = A5 y
    rw [hi]
  · funext y
    have hi : ((cfg0.win 6).blk t).view.emb y = y := by
      funext d; apply Fin.ext
      match d with
      | ⟨0, _⟩ => show win0_6.index t (0 : Fin 2) * 1 + 1 * (y 0).val = (y 0).val; omega
      | ⟨1, _⟩ => show win0_6.index t (1 : Fin 2) * 128 + 1 * (y 1).val = (y 1).val; omega
    show A6 (((cfg0.win 6).blk t).view.emb y) = A6 y
    rw [hi]

/-- What point t writes back is block t of the head over the arrays the kernel is launched on. -/
theorem flushed7_eq (c : Dev nD) (t : Fin cfg0.N) :
    (dats m 0 c).flushed 7 t = ((cfg0.win 7).blk t).view.read (Elt Ideal)
      (Cert.SplitDense.outOf (Cert.SplitDense.hidden (V m c main_arg0) (V m c main_v4) (V m c main_v5) (V m c main_v6)
        (V m c main_v7)) (V m c main_arg5) (V m c main_v8)) := by
  rw [flushed7]
  unfold out0_7
  rw [View.canon_unit_zero hz]
  simp only [View.ld_unit_zero (S := S2000x128) hz, View.ld_unit_zero (S := S2000x64) hz, View.ld_unit_zero (S := S128x256) hz,
    View.ld_unit_zero (S := S64x256) hz, View.ld_unit_zero (S := S1x256) hz, View.ld_unit_zero (S := S256x128) hz,
    View.ld_unit_zero (S := S1x128) hz]
  rw [pay_eq]
  exact point_eq c t (V m c main_arg0) (V m c main_v4) (V m c main_v5) (V m c main_v6) (V m c main_v7) (V m c main_arg5)
    (V m c main_v8)

/-- An index of the result array is in point t's block iff each coordinate is in the block's range on its axis. -/
theorem mem_blk7 (t : Fin cfg0.N) (i : S50000x128.Idx) :
    i ∈ ((cfg0.win 7).blk t).view.set ↔ ∀ d : Fin 2, win0_7.index t d * S2000x128.size d ≤ (i d).val
      ∧ (i d).val < win0_7.index t d * S2000x128.size d + S2000x128.size d := by
  show i ∈ ((View.whole main_v9).slice (win0_7.rect t)).set ↔ _
  rw [View.set_slice_whole, Rect.mem_set_unit]
  exact Iff.rfl

/-- Row r lies in the block of point r / 2000. -/
theorem cover7 (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  obtain ⟨t, ht⟩ := idx_onto ⟨(i 0).val / 2000, by omega⟩
  have q0 : win0_7.index t (0 : Fin 2) = (i 0).val / 2000 := congrFun ht 0
  have q1 : win0_7.index t (1 : Fin 2) = 0 := congrFun ht 1
  refine ⟨t, flush0_7 t, ?_⟩
  rw [mem_blk7]
  intro d
  match d with
  | ⟨0, _⟩ =>
    show win0_7.index t (0 : Fin 2) * 2000 ≤ (i 0).val ∧ (i 0).val < win0_7.index t (0 : Fin 2) * 2000 + 2000
    omega
  | ⟨1, _⟩ =>
    show win0_7.index t (1 : Fin 2) * 128 ≤ (i 1).val ∧ (i 1).val < win0_7.index t (1 : Fin 2) * 128 + 128
    omega

/-- The result array after the run is `G` of the arguments. -/
theorem final7 (c : Dev nD) : (dats m 0 c).arrAt 7 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [(dats m 0 c).arrAt_eq_of_cover 7 _ (fun t _ => flushed7_eq m c t) cover7]
  rw [V_main_arg0, V_main_arg5, V_agg, V_wTop, V_wBottom, V_row₁, V_row₂]
  rfl

/-- The kernel's run with the result array at `G` of the arguments, the arguments unchanged. -/
theorem run : θ_run defs (onTc (τ := τ) (main (F := Ideal))) ⟨m, fun _ => 0, ρ⟩ fun r => ∀ c : Dev nD,
      r.2.mem ((c : Thread nD τ).loc main_v9)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2⟩) (Value.run_blocks m ρ)

end Cert.NodeLayer.Kern

end
-- ==== Proof.LibConcatLanes.lean ====
/-
  Two row blocks joined along the lanes, and a contraction over the joined lanes split in two.

  For X (R×a) and A (R×b), the concatenation along axis 1 is the R×(a+b) array holding X(r, c) at lane c < a and
  A(r, c − a) at lane c ≥ a. A sum over the joined lanes against the rows of a stacked weight W ((a+b)×h) is therefore
  the sum over X's lanes against W's first a rows plus the sum over A's lanes against W's last b rows:

    Σ_{c < a+b} [X | A](r, c) · W(c, k) = Σ_{c < a} X(r, c) · W(c, k) + Σ_{c < b} A(r, c) · W(a + c, k).

  Only the way the index set Fin (a+b) splits into its first a and last b elements is used, in any additive
  commutative monoid — on the extended reals this asks nothing of the entries. The two row slices of W are read
  at an entry alongside (`slice_top`, `slice_bottom`).
-/
import Idealize.ShloMosaic.PureOps.Ideal.Laws
import Idealize.ShloMosaic.Lib.ValueIdx
import Idealize.ShloMosaic.Lib.Pipeline.Value

noncomputable section

open scoped BigOperators

namespace Cert.ConcatLanes

open Idealize.ShloMosaic Idealize.ShloMosaic.ValueIdx

variable {α : Type} {R a b h : Nat}

/-- The joined array at a lane of the first block. -/
theorem concat_left (X : (⟨2, ![R, a]⟩ : Shape).Idx → α) (A : (⟨2, ![R, b]⟩ : Shape).Idx → α)
    (hc : Shape.Concatenates [(⟨2, ![R, a]⟩ : Shape), ⟨2, ![R, b]⟩] ⟨2, ![R, a + b]⟩ (1 : Fin 2)) (r : Fin R) (c : Fin a) :
    concatenate ⟨2, ![R, a + b]⟩ (1 : Fin 2) [⟨⟨2, ![R, a]⟩, X⟩, ⟨⟨2, ![R, b]⟩, A⟩] hc (ix2 r (Fin.castAdd b c)) = X (ix2 r c) :=
  concatenate_pair_apply_left (1 : Fin 2) X A hc (ix2 r (Fin.castAdd b c)) rfl (ix2 r c)
    (fun d => match d with | ⟨0, _⟩ => rfl | ⟨1, _⟩ => rfl)

/-- The joined array at a lane of the second block. -/
theorem concat_right (X : (⟨2, ![R, a]⟩ : Shape).Idx → α) (A : (⟨2, ![R, b]⟩ : Shape).Idx → α)
    (hc : Shape.Concatenates [(⟨2, ![R, a]⟩ : Shape), ⟨2, ![R, b]⟩] ⟨2, ![R, a + b]⟩ (1 : Fin 2)) (r : Fin R) (c : Fin b) :
    concatenate ⟨2, ![R, a + b]⟩ (1 : Fin 2) [⟨⟨2, ![R, a]⟩, X⟩, ⟨⟨2, ![R, b]⟩, A⟩] hc (ix2 r (Fin.natAdd a c)) = A (ix2 r c) :=
  concatenate_pair_apply_right (1 : Fin 2) X A hc (ix2 r (Fin.natAdd a c)) rfl rfl (ix2 r c)
    (fun d hd => match d, hd with
      | ⟨0, _⟩, _ => rfl
      | ⟨1, _⟩, hd => absurd rfl hd)
    (by show c.val + a = a + c.val; omega)

/-- The contraction over the joined lanes is the sum of the two blocks' contractions. -/
theorem sum_concat (X : (⟨2, ![R, a]⟩ : Shape).Idx → EReal) (A : (⟨2, ![R, b]⟩ : Shape).Idx → EReal)
    (hc : Shape.Concatenates [(⟨2, ![R, a]⟩ : Shape), ⟨2, ![R, b]⟩] ⟨2, ![R, a + b]⟩ (1 : Fin 2))
    (W : (⟨2, ![a + b, h]⟩ : Shape).Idx → EReal) (r : Fin R) (k : Fin h) :
    (∑ c : Fin (a + b), concatenate ⟨2, ![R, a + b]⟩ (1 : Fin 2) [⟨⟨2, ![R, a]⟩, X⟩, ⟨⟨2, ![R, b]⟩, A⟩] hc (ix2 r c) * W (ix2 c k))
      = (∑ c : Fin a, X (ix2 r c) * W (ix2 (Fin.castAdd b c) k)) + ∑ c : Fin b, A (ix2 r c) * W (ix2 (Fin.natAdd a c) k) := by
  rw [Fin.sum_univ_add]
  congr 1
  · exact Finset.sum_congr rfl fun c _ => by rw [concat_left]
  · exact Finset.sum_congr rfl fun c _ => by rw [concat_right]

/-- The first a rows of a stacked weight, cut out as an a×h array, at an entry. -/
theorem slice_top (W : (⟨2, ![a + b, h]⟩ : Shape).Idx → α)
    (hs : (⟨2, ![a + b, h]⟩ : Shape).Slices ![0, 0] ⟨2, ![a, h]⟩) (c : Fin a) (k : Fin h) :
    extractStridedSlice ⟨2, ![a, h]⟩ ![0, 0] W hs (ix2 c k) = W (ix2 (Fin.castAdd b c) k) :=
  extractStridedSlice_apply ![0, 0] W hs (ix2 c k) (ix2 (Fin.castAdd b c) k) (fun d => match d with
    | ⟨0, _⟩ => by show c.val = 0 + c.val; omega
    | ⟨1, _⟩ => by show k.val = 0 + k.val; omega)

/-- The last b rows of a stacked weight, cut out as a b×h array, at an entry. -/
theorem slice_bottom (W : (⟨2, ![a + b, h]⟩ : Shape).Idx → α)
    (hs : (⟨2, ![a + b, h]⟩ : Shape).Slices ![a, 0] ⟨2, ![b, h]⟩) (c : Fin b) (k : Fin h) :
    extractStridedSlice ⟨2, ![b, h]⟩ ![a, 0] W hs (ix2 c k) = W (ix2 (Fin.natAdd a c) k) :=
  extractStridedSlice_apply ![a, 0] W hs (ix2 c k) (ix2 (Fin.natAdd a c) k) (fun d => match d with
    | ⟨0, _⟩ => rfl
    | ⟨1, _⟩ => by show k.val = 0 + k.val; omega)

end Cert.ConcatLanes

end
-- ==== Proof.RefSide.lean ====
/-
  The reference computes `G`.

  Read one operation at a time, entry (r, q) of the reference's result is
    Σ_k max (Σ_{c<192} [x | agg](r,c)·W₁(c,k) + b₁(k), 0) · W₂(k,q) + b₂(q),
  the node features and the aggregate joined along the lanes before ONE product with the whole first-layer weight.
  The sum over the 192 joined lanes splits into the 128 lanes of x against W₁'s first 128 rows and the 64 lanes of
  the aggregate against its last 64 rows (`Cert.ConcatLanes.sum_concat`); that is `G`'s first layer. The two bias
  vectors reach their rows through a broadcast here and a reshape in `G`: both read the vector at the lane.
-/
import proofs.«130215_j83949430768186_1_alg».proof.Proof.Spec
import proofs.«130215_j83949430768186_1_alg».proof.Proof.Gen.ReferenceIdeal.Read
import proofs.«130215_j83949430768186_1_alg».proof.Proof.LibConcatLanes
import proofs.«130215_j83949430768186_1_alg».proof.Proof.LibRowVector

noncomputable section

open scoped BigOperators

namespace Cert.NodeLayer.Ref

open Idealize.ShloMosaic Idealize.ShloMosaic.ValueIdx
open Cert.ReferenceIdeal Cert.ReferenceIdeal.Gen Cert.ReferenceIdeal.Read Cert.NodeLayer

/-- The reference's scatter-add stage is the aggregate: the same operations of the same arguments. -/
theorem agg_eq (x1 : (⟨S2x800000, .i32⟩ : BufTy).Contents (Elt Ideal)) (x2 : (⟨S800000x64, .f32⟩ : BufTy).Contents (Elt Ideal)) :
    val_main_v4 (F := Ideal) x1 x2 = agg x1 x2 := rfl

/-- The reference's clamped first layer at (r, k) is `G`'s hidden layer there. -/
theorem hidden_eq (x0 : (⟨S50000x128, .f32⟩ : BufTy).Contents (Elt Ideal)) (x1 : (⟨S2x800000, .i32⟩ : BufTy).Contents (Elt Ideal))
    (x2 : (⟨S800000x64, .f32⟩ : BufTy).Contents (Elt Ideal)) (x3 : (⟨S192x256, .f32⟩ : BufTy).Contents (Elt Ideal))
    (x4 : (⟨S256, .f32⟩ : BufTy).Contents (Elt Ideal)) (r : Fin 50000) (k : Fin 256) :
    val_main_v10 (F := Ideal) x0 x1 x2 x3 x4 (ix2 r k)
      = Cert.SplitDense.hidden x0 (agg x1 x2) (wTop x3) (wBottom x3) (row₁ x4) (ix2 r k) := by
  have el : ∀ c : Fin 192, lidx_main_v6 (ix2 r k) c = ix2 r c := fun c => funext fun a => Fin.ext (by
    match a with
    | ⟨0, _⟩ => rfl
    | ⟨1, _⟩ => rfl)
  have er : ∀ c : Fin 192, ridx_main_v6 (ix2 r k) c = ix2 c k := fun c => funext fun a => Fin.ext (by
    match a with
    | ⟨0, _⟩ => rfl
    | ⟨1, _⟩ => rfl)
  have eb : idx_main_v7 (idx_main_v8 (ix2 r k)) = ix1 k := funext fun a => Fin.ext (by
    match a with
    | ⟨0, _⟩ => rfl)
  rw [val_main_v10_apply, val_main_v9_apply, val_main_v6_apply, val_main_v8_apply, val_main_v7_apply,
    val_main_call0_v0_apply, val_main_call0_cst_apply, eb]
  simp only [el, er]
  unfold val_main_v5
  rw [agg_eq]
  show max ((∑ c : Fin (128 + 64), concatenate ⟨2, ![50000, 128 + 64]⟩ (1 : Fin 2)
      [⟨⟨2, ![50000, 128]⟩, x0⟩, ⟨⟨2, ![50000, 64]⟩, agg x1 x2⟩] concatenates_S50000x128_S50000x64_S50000x192_d1 (ix2 r c)
        * x3 (ix2 c k)) + x4 (ix1 k)) (Ideal.ofBits .f32 0x00000000#32) = _
  rw [Cert.ConcatLanes.sum_concat]
  show _ = max (((∑ c : Fin 128, x0 (ix2 r c) * wTop x3 (ix2 c k)) + ∑ c : Fin 64, agg x1 x2 (ix2 r c) * wBottom x3 (ix2 c k))
    + row₁ x4 (ix2 0 k)) (Ideal.ofBits .f32 0x00000000#32)
  unfold wTop wBottom row₁
  simp only [Cert.ConcatLanes.slice_top (a := 128) (b := 64), Cert.ConcatLanes.slice_bottom (a := 128) (b := 64),
    Cert.RowVector.shapeCast_row]

/-- The reference's last stage is `G` of the arguments. -/
theorem ref_eq (x0 : (⟨S50000x128, .f32⟩ : BufTy).Contents (Elt Ideal)) (x1 : (⟨S2x800000, .i32⟩ : BufTy).Contents (Elt Ideal))
    (x2 : (⟨S800000x64, .f32⟩ : BufTy).Contents (Elt Ideal)) (x3 : (⟨S192x256, .f32⟩ : BufTy).Contents (Elt Ideal))
    (x4 : (⟨S256, .f32⟩ : BufTy).Contents (Elt Ideal)) (x5 : (⟨S256x128, .f32⟩ : BufTy).Contents (Elt Ideal))
    (x6 : (⟨S128, .f32⟩ : BufTy).Contents (Elt Ideal)) :
    val_main_v14 (F := Ideal) x0 x1 x2 x3 x4 x5 x6 = G x0 x1 x2 x3 x4 x5 x6 := by
  funext i
  obtain ⟨r, q, rfl⟩ : ∃ (r : Fin 50000) (q : Fin 128), i = ix2 r q := ⟨i 0, i 1, eq_ix2 i⟩
  have el : ∀ k : Fin 256, lidx_main_v11 (ix2 r q) k = ix2 r k := fun k => funext fun a => Fin.ext (by
    match a with
    | ⟨0, _⟩ => rfl
    | ⟨1, _⟩ => rfl)
  have er : ∀ k : Fin 256, ridx_main_v11 (ix2 r q) k = ix2 k q := fun k => funext fun a => Fin.ext (by
    match a with
    | ⟨0, _⟩ => rfl
    | ⟨1, _⟩ => rfl)
  have eb : idx_main_v12 (idx_main_v13 (ix2 r q)) = ix1 q := funext fun a => Fin.ext (by
    match a with
    | ⟨0, _⟩ => rfl)
  rw [val_main_v14_apply, val_main_v11_apply, val_main_v13_apply, val_main_v12_apply, eb]
  simp only [el, er, hidden_eq]
  show _ = (∑ k : Fin 256, Cert.SplitDense.hidden x0 (agg x1 x2) (wTop x3) (wBottom x3) (row₁ x4) (ix2 r k) * x5 (ix2 k q))
    + row₂ x6 (ix2 0 q)
  unfold row₂
  rw [Cert.RowVector.shapeCast_row]
  rfl

end Cert.NodeLayer.Ref

end
-- ==== Proof.lean ====
/-
  A graph node layer: per-node sums of incoming edge features, then a two-layer perceptron on [node features | sums].

  Inputs: node features x (50000×128), an edge index (2×800000, its first row the node each edge is summed into),
  edge features (800000×64), weights W₁ (192×256), W₂ (256×128) and biases b₁ (256), b₂ (128).
  Both programs first form the aggregate agg (50000×64): every edge's feature row added into its node's row, by the
  same scatter-add of the same arguments — it is carried as one array and never opened (Proof/Spec.lean `agg`).

  The reference joins x and agg along the lanes into a 50000×192 array and computes
      relu([x | agg] · W₁ + b₁) · W₂ + b₂.
  The kernel never forms the joined array: on each block of 2000 rows it computes
      relu((x · W₁[0:128] + agg · W₁[128:192]) + b₁) · W₂ + b₂,
  with its operands passed through a narrower float format, which over the extended reals changes nothing.

  The two agree because a sum over the 192 joined lanes is the sum over the first 128 plus the sum over the last 64
  (Proof/LibConcatLanes.lean `sum_concat`): a regrouping of one finite sum, valid for all extended reals, so the
  precondition (every float input finite) is not used. Everything else is the same operation on both sides: the bias
  rows (a reshape in the kernel's caller, a broadcast in the reference) read the bias at the lane, the clamp is the
  maximum with the same zero word, and each matrix product is the plain sum over the contracted coordinate.

  Proof/Spec.lean states the common value `G` of the seven arguments; Proof/KernelSide.lean shows the kernel's result
  array ends at `G` (the body at a block, the blocks covering the rows); Proof/RefSide.lean shows the reference's
  result is `G`. The three runs themselves (termination, no fault, arguments unchanged) are the generated frames
  and the generated reference run; the idealization rewrote no operation, so `preserves` has nothing to state.
-/
import proofs.«130215_j83949430768186_1_alg».proof.Defs
import proofs.«130215_j83949430768186_1_alg».proof.Proof.Gen.Kernel
import proofs.«130215_j83949430768186_1_alg».proof.Proof.Gen.Kernel.Frame
import proofs.«130215_j83949430768186_1_alg».proof.Proof.Gen.KernelIdeal
import proofs.«130215_j83949430768186_1_alg».proof.Proof.Gen.KernelIdeal.Frame
import proofs.«130215_j83949430768186_1_alg».proof.Proof.Gen.KernelIdeal.Value
import proofs.«130215_j83949430768186_1_alg».proof.Proof.Gen.ReferenceIdeal
import proofs.«130215_j83949430768186_1_alg».proof.Proof.Gen.ReferenceIdeal.Run
import proofs.«130215_j83949430768186_1_alg».proof.Proof.Gen.ReferenceIdeal.Read
import proofs.«130215_j83949430768186_1_alg».proof.Proof.Gen.Pre_finite_inputs
import proofs.«130215_j83949430768186_1_alg».proof.Proof.KernelSide
import proofs.«130215_j83949430768186_1_alg».proof.Proof.RefSide

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the result array at `G` of the arguments. -/
theorem algebraic : Cert.algebraic_KernelIdeal_ReferenceIdeal := by
  intro m ρ m' ρ' _ hagree
  refine ⟨_, Cert.NodeLayer.Kern.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v14_eq, Cert.NodeLayer.Ref.ref_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
